-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x4096 : Shape := ⟨2, ![512, 4096]⟩
abbrev S4096 : Shape := ⟨1, ![4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x512 .f32) (main_arg1 : FVec F S512x4096 .f32) (main_arg2 : FVec F S4096 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x512 : Shape := ⟨2, ![8192, 512]⟩
abbrev S512x4096 : Shape := ⟨2, ![512, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x4096 : Shape := ⟨2, ![8192, 4096]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩

abbrev nBuf : Space → Nat
  | .hbm => 15
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S4096, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S512x4096, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S1x4096, .f32⟩
  | .hbm, ⟨12, _⟩ => ⟨S8192x512, .bf16⟩
  | .hbm, ⟨13, _⟩ => ⟨S512x4096, .bf16⟩
  | .hbm, ⟨14, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S512x4096_S4096_d0 : S512x4096.ReducesTo [0] S4096
  bcast_S4096_S1x4096_1 : S4096.BroadcastsInDim S1x4096 (![1] : Fin 1 → Fin S1x4096.rank)
  shapeCasts_S4096_S1x4096 : S4096.ShapeCasts S1x4096
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x4096.size a
  hwx0_1 : ∀ i : grid0.Coords, EltTy.bits .bf16 = 32 ∨ (Rect.block (s := S512x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S8192x4096.size a
  hwx0_5 : ∀ i : grid0.Coords, EltTy.bits .f32 = 32 ∨ (Rect.block (s := S8192x4096) S2048x512.size (cc0_transform_5 i) (hinb0_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x4096 : Shape := ⟨2, ![512, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S4096, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S512x4096, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S512x4096_S4096_d0 : S512x4096.ReducesTo [0] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x512_S512x4096_S8192x4096_1_0_0_1_n_n_wf : DotDims.WF S8192x512 S512x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf

class Facts : Prop extends Facts₀ where

variable [Facts]
-- ==== Proof.RbfSpec.lean ====
/-
  The function both programs compute, over the extended reals.

  For `x : [8192, 512]`, `w : [512, 4096]` and `b : [4096]`, entry `(r, c)` of the result is

      exp (-1 · max ((|x_r|² + |w_c|²) - 2 · <x_r, w_c>, 0)) + b_c

  where `|x_r|² = 0 + Σ_k x(r,k) · x(r,k)` is the squared length of row `r` of `x`,
  `|w_c|² = 0 + Σ_k w(k,c) · w(k,c)` the squared length of column `c` of `w`, and
  `<x_r, w_c> = Σ_k x(r,k) · w(k,c)` their inner product: the Gaussian radial basis function of the
  squared Euclidean distance between row `r` and column `c`, the distance expanded as
  `|a|² + |b|² - 2 <a, b>` and clamped at zero before it is negated and exponentiated.

  The three float constants (0, 2, -1) stay the binary words the programs print: both programs use
  the same words in the same places, so their values are never needed.  The arrangement of the
  arithmetic is the programs' own — the two squared lengths are added first, twice the inner product
  is subtracted from that sum — so no law of the extended reals beyond equality of terms is used.
-/
import Idealize.ShloMosaic.PureOps.Ideal
import Idealize.ShloMosaic.Lib.ValueIdx

noncomputable section

open scoped BigOperators

namespace Rbf

open Idealize.ShloMosaic Idealize.ShloMosaic.ValueIdx

/-- The squared length of row `r` of `x`: the sum's initial value, the zero word, plus the squares. -/
def rowSq (x : (⟨2, ![8192, 512]⟩ : Shape).Idx → EReal) (r : Fin 8192) : EReal :=
  Ideal.ofBits .f32 0x00000000#32 + ∑ k : Fin 512, x (ix2 r k) * x (ix2 r k)

/-- The squared length of column `c` of `w`. -/
def colSq (w : (⟨2, ![512, 4096]⟩ : Shape).Idx → EReal) (c : Fin 4096) : EReal :=
  Ideal.ofBits .f32 0x00000000#32 + ∑ k : Fin 512, w (ix2 k c) * w (ix2 k c)

/-- The inner product of row `r` of `x` with column `c` of `w`. -/
def inner (x : (⟨2, ![8192, 512]⟩ : Shape).Idx → EReal) (w : (⟨2, ![512, 4096]⟩ : Shape).Idx → EReal)
    (r : Fin 8192) (c : Fin 4096) : EReal :=
  ∑ k : Fin 512, x (ix2 r k) * w (ix2 k c)

/-- The squared distance from the two squared lengths `a`, `b` and the inner product `p`:
    `(a + b) - 2 · p`. -/
def sqDist (a b p : EReal) : EReal := (a + b) - Ideal.ofBits .f32 0x40000000#32 * p

/-- One entry from its squared distance `d` and its bias `β`: `exp (-1 · max d 0) + β`. -/
def cell (d β : EReal) : EReal :=
  Ideal.exp (Ideal.ofBits .f32 0xBF800000#32 * max d (Ideal.ofBits .f32 0x00000000#32)) + β

/-- The whole result array. -/
def rbf (x : (⟨2, ![8192, 512]⟩ : Shape).Idx → EReal) (w : (⟨2, ![512, 4096]⟩ : Shape).Idx → EReal)
    (b : (⟨1, ![4096]⟩ : Shape).Idx → EReal) : (⟨2, ![8192, 4096]⟩ : Shape).Idx → EReal := fun i =>
  cell (sqDist (rowSq x (i 0)) (colSq w (i 1)) (inner x w (i 0) (i 1))) (b (ix1 (i 1)))

end Rbf

end
-- ==== Proof.RefValue.lean ====
/-
  The reference's result is the radial basis function of the specification.

  The reference computes the two squared lengths by a sum over the rows' and the columns' entries
  and lays each out by two broadcasts (a vector to a column or a row, then along the other axis),
  takes the matrix product, and applies the remaining operations entry by entry.  Read at an entry
  `(r, c)`, every layout step only names which entry of its operand is read: row `r`, column `c`,
  or the contraction index `k`.  Once those names are identified, the reference's entry is the
  specification's, term for term.
-/
import proofs.«132300_j70506183131345_2_alg».proof.Proof.Gen.ReferenceIdeal.Read
import proofs.«132300_j70506183131345_2_alg».proof.Proof.RbfSpec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The entry of `x` the row sum reads at step `k`, through the two broadcasts: `(r, k)`. -/
theorem row_entry (i : S8192x4096.Idx) (k : Fin 512) :
    idx_main_v1 (idx_main_v2 (idx_main_v6 i)) k = ix2 (i 0) k :=
  funext fun a => Fin.ext (by match a with | ⟨0, _⟩ => rfl | ⟨1, _⟩ => rfl)

/-- The entry of `w` the column sum reads at step `k`, through the two broadcasts: `(k, c)`. -/
theorem col_entry (i : S8192x4096.Idx) (k : Fin 512) :
    idx_main_v4 (idx_main_v5 (idx_main_v7 i)) k = ix2 k (i 1) :=
  funext fun a => Fin.ext (by match a with | ⟨0, _⟩ => rfl | ⟨1, _⟩ => rfl)

/-- The matrix product's left entry at step `k`: `(r, k)`. -/
theorem left_entry (i : S8192x4096.Idx) (k : Fin 512) : lidx_main_v9 i k = ix2 (i 0) k :=
  funext fun a => Fin.ext (by match a with | ⟨0, _⟩ => rfl | ⟨1, _⟩ => rfl)

/-- The matrix product's right entry at step `k`: `(k, c)`. -/
theorem right_entry (i : S8192x4096.Idx) (k : Fin 512) : ridx_main_v9 i k = ix2 k (i 1) :=
  funext fun a => Fin.ext (by match a with | ⟨0, _⟩ => rfl | ⟨1, _⟩ => rfl)

/-- The bias entry read through its two broadcasts: `c`. -/
theorem bias_entry (i : S8192x4096.Idx) : idx_main_v18 (idx_main_v19 i) = ix1 (i 1) :=
  funext fun a => Fin.ext (by match a with | ⟨0, _⟩ => rfl)

/-- The reference's last stage is the specification's function of the three arguments. -/
theorem result_eq (x : (⟨S8192x512, .f32⟩ : BufTy).Contents (Elt Ideal))
    (w : (⟨S512x4096, .f32⟩ : BufTy).Contents (Elt Ideal)) (b : (⟨S4096, .f32⟩ : BufTy).Contents (Elt Ideal)) :
    val_main_v20 (F := Ideal) x w b = Rbf.rbf x w b := by
  funext i
  rw [val_main_v20_apply, val_main_v17_apply, val_main_v16_apply, val_main_v15_apply, val_main_cst_3_apply,
    val_main_v14_apply, val_main_v12_apply, val_main_v13_apply, val_main_cst_2_apply, val_main_v8_apply,
    val_main_v11_apply, val_main_v10_apply, val_main_cst_1_apply, val_main_v9_apply, val_main_v6_apply,
    val_main_v2_apply, val_main_v1_apply, val_main_v7_apply, val_main_v5_apply, val_main_v4_apply,
    val_main_v19_apply, val_main_v18_apply, val_main_cst_apply, val_main_cst_0_apply]
  simp only [val_main_v0_apply, val_main_v3_apply, row_entry, col_entry, left_entry, right_entry, bias_entry,
    Ideal.addf_def, Ideal.subf_def, Ideal.mulf_def, Ideal.maximumf_def, Ideal.hostUnary_exp_def, Ideal.ofBits_def]
  rfl

end Cert.ReferenceIdeal.RefValue

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelBody.lean ====
/-
  One grid point's arithmetic, read at an entry.

  At a grid point the body holds a block of 2048 rows of `x` (`xs`), a block of 512 columns of `w`
  (`ws`), the 2048 squared row lengths as a column (`a`), the 512 squared column lengths as a row
  (`b`) and the 512 bias entries as a row (`β`), and stores one 2048 × 512 block.  Entry `(p, q)` of
  that block depends on row `p` of `xs` and column `q` of `ws` only through their inner product — the
  matrix unit's product into a zero accumulator is, over the extended reals, the sum over the
  contraction index —, on `a` at row `p`, and on `b` and `β` at column `q` (a column broadcast
  along the rows reads its row, a row broadcast down the columns reads its column).  The remaining
  operations act entry by entry, so the entry is the specification's `cell` of the specification's
  `sqDist` of these four numbers.
-/
import proofs.«132300_j70506183131345_2_alg».proof.Proof.Gen.KernelIdeal.Skeleton
import proofs.«132300_j70506183131345_2_alg».proof.Proof.RbfSpec
import proofs.«132300_j70506183131345_2_alg».proof.Proof.LibDotRows
import proofs.«132300_j70506183131345_2_alg».proof.Proof.LibLayout
import Idealize.ShloMosaic.Lib.ValueLayout
import Idealize.ShloMosaic.Lib.Pipeline.Value

noncomputable section

open scoped BigOperators

namespace Cert.KernelIdeal.Body

open Cert.KernelIdeal Cert.KernelIdeal.Gen
open Idealize.ShloMosaic Idealize.ShloMosaic.TcCoe Idealize.ShloMosaic.ValueIdx

/-- Entry `(p, q)` of the block a grid point stores, from the five blocks it loads. -/
theorem stored_entry (xs : Vec Ideal S2048x512 .bf16) (ws : Vec Ideal S512x512 .bf16) (a : Vec Ideal S2048x1 .f32)
    (b β : Vec Ideal S1x512 .f32) (p : Fin 2048) (q : Fin 512) :
    k0_pay1 (F := Ideal) xs ws a b β (ix2 p q)
      = Rbf.cell (Rbf.sqDist (a (ix2 p (0 : Fin 1))) (b (ix2 (0 : Fin 1) q)) (∑ k : Fin 512, xs (ix2 p k) * ws (ix2 k q)))
          (β (ix2 (0 : Fin 1) q)) := by
  have ha := broadcastTo_a1_ab_apply a broadcasts_S2048x1_S2048x512 p q
  have hb := broadcastTo_1b_ab_apply b broadcasts_S1x512_S2048x512 p q
  have hβ := broadcastTo_1b_ab_apply β broadcasts_S1x512_S2048x512 p q
  have hdot := matmul_zero_rows (φ₁ := .bf16) (φ₂ := .bf16) dot_S2048x512_S512x512_S2048x512_1_0_0_1_n_n none rfl rfl
    (fun _ _ => rfl) (fun _ _ => rfl) (fun _ _ => rfl) (fun _ _ => rfl) xs ws p q
  unfold k0_pay1
  simp only [shapeCast_self]
  unfold Rbf.cell Rbf.sqDist
  rw [← ha, ← hb, ← hβ, ← hdot]
  rfl

end Cert.KernelIdeal.Body

end
-- ==== Proof.KernelEntry.lean ====
/-
  What the kernel's region finds in the five arrays it reads, entry by entry.

  Before the region the program squares `x` and `w` entrywise and sums the squares — along each
  row of `x`, along each column of `w` —, lays the row sums out as a column `[8192, 1]` and the
  column sums as a row `[1, 4096]`, lays the bias out as a row `[1, 4096]`, and changes the float
  format of `x` and of `w`.  Over the extended reals a change of format is the identity and the
  host's sum is the sum's initial value plus the plain sum of the summed entries, so:
  the two converted arrays hold `x` and `w`; the column holds, at row `r`, the squared length of
  row `r` of `x`; the two rows hold, at column `c`, the squared length of column `c` of `w` and the
  bias entry `c`.
-/
import proofs.«132300_j70506183131345_2_alg».proof.Proof.Gen.KernelIdeal.Frame
import proofs.«132300_j70506183131345_2_alg».proof.Proof.RbfSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Entry

open Cert.KernelIdeal Cert.KernelIdeal.Gen
open Idealize.ShloMosaic Idealize.ShloMosaic.TcCoe Idealize.ShloMosaic.ValueIdx Idealize.ShloMosaic.StableHlo

/-- The host's sum along the rows of a `[8192, 512]` array, at row `r`: the initial value plus the
    sum of the row's entries. -/
theorem sum_along_row (y : FVec Ideal S8192x512 .f32) (v : FVec Ideal S_ .f32) (r : Fin 8192) :
    Host.reduceAdd y v reducesTo_S8192x512_S8192_d1 h_S_ (ix1 r)
      = v (Shape.Idx.first h_S_) + ∑ k : Fin 512, y (ix2 r k) := by
  simp only [Host.reduceAdd, Ideal.hostReduceAdd_def]
  rw [Ideal.hostReduceAdd_single reducesTo_S8192x512_S8192_d1 (by decide)]
  refine congrArg (_ + ·) (Finset.sum_congr rfl fun k _ => ?_)
  exact congrArg y (funext fun a => Fin.ext (by match a with | ⟨0, _⟩ => rfl | ⟨1, _⟩ => rfl))

/-- The host's sum along the columns of a `[512, 4096]` array, at column `c`: the initial value plus
    the sum of the column's entries. -/
theorem sum_along_col (y : FVec Ideal S512x4096 .f32) (v : FVec Ideal S_ .f32) (c : Fin 4096) :
    Host.reduceAdd y v reducesTo_S512x4096_S4096_d0 h_S_ (ix1 c)
      = v (Shape.Idx.first h_S_) + ∑ k : Fin 512, y (ix2 k c) := by
  simp only [Host.reduceAdd, Ideal.hostReduceAdd_def]
  rw [Ideal.hostReduceAdd_single reducesTo_S512x4096_S4096_d0 (by decide)]
  refine congrArg (_ + ·) (Finset.sum_congr rfl fun k _ => ?_)
  exact congrArg y (funext fun a => Fin.ext (by match a with | ⟨0, _⟩ => rfl | ⟨1, _⟩ => rfl))

variable (m : (ℓ : Loc nD τ sig) → Buf (Elt Ideal) ℓ)

/-- The converted copy of `x` holds `x`. -/
theorem x_entry (c : Dev nD) (i : S8192x512.Idx) :
    (V m c main_v7 : S8192x512.Idx → EReal) i = (m ((c : Thread nD τ).loc main_arg0) : S8192x512.Idx → EReal) i := by
  have e : (V m c main_v7 : S8192x512.Idx → EReal)
      = truncf (F := Ideal) (s := S8192x512) (φ := .f32) .bf16 (m ((c : Thread nD τ).loc main_arg0)) bitsLt_bf16_f32 := by
    dsimp only [Gen.V, Gen.hostOps0]; after_results
  rw [e]; rfl

/-- The converted copy of `w` holds `w`. -/
theorem w_entry (c : Dev nD) (i : S512x4096.Idx) :
    (V m c main_v8 : S512x4096.Idx → EReal) i = (m ((c : Thread nD τ).loc main_arg1) : S512x4096.Idx → EReal) i := by
  have e : (V m c main_v8 : S512x4096.Idx → EReal)
      = truncf (F := Ideal) (s := S512x4096) (φ := .f32) .bf16 (m ((c : Thread nD τ).loc main_arg1)) bitsLt_bf16_f32 := by
    dsimp only [Gen.V, Gen.hostOps0]; after_results
  rw [e]; rfl

/-- The column of row sums holds, at row `r`, the squared length of row `r` of `x`. -/
theorem rowSq_entry (c : Dev nD) (r : Fin 8192) (u : Fin 1) :
    (V m c main_v2 : S8192x1.Idx → EReal) (ix2 r u) = Rbf.rowSq (m ((c : Thread nD τ).loc main_arg0)) r := by
  have e : (V m c main_v2 : S8192x1.Idx → EReal)
      = broadcastInDim S8192x1 ![0] bcast_S8192_S8192x1_0
          (Host.reduceAdd (mulf (m ((c : Thread nD τ).loc main_arg0) : FVec Ideal S8192x512 .f32) (m ((c : Thread nD τ).loc main_arg0)))
            (constant (F := Ideal) S_ .f32 0x00000000#32) reducesTo_S8192x512_S8192_d1 h_S_) := by
    dsimp only [Gen.V, Gen.hostOps0]; after_results
  rw [e, broadcastInDim_apply _ bcast_S8192_S8192x1_0 _ (ix2 r u) (ix1 r) (fun a => match a with
    | ⟨0, _⟩ => by show r.val = if (8192 : Nat) = 1 then 0 else r.val; rw [if_neg (by decide)]), sum_along_row]
  rfl

/-- The row of column sums holds, at column `j`, the squared length of column `j` of `w`. -/
theorem colSq_entry (c : Dev nD) (u : Fin 1) (j : Fin 4096) :
    (V m c main_v5 : S1x4096.Idx → EReal) (ix2 u j) = Rbf.colSq (m ((c : Thread nD τ).loc main_arg1)) j := by
  have e : (V m c main_v5 : S1x4096.Idx → EReal)
      = broadcastInDim S1x4096 ![1] bcast_S4096_S1x4096_1
          (Host.reduceAdd (mulf (m ((c : Thread nD τ).loc main_arg1) : FVec Ideal S512x4096 .f32) (m ((c : Thread nD τ).loc main_arg1)))
            (constant (F := Ideal) S_ .f32 0x00000000#32) reducesTo_S512x4096_S4096_d0 h_S_) := by
    dsimp only [Gen.V, Gen.hostOps0]; after_results
  rw [e, broadcastInDim_apply _ bcast_S4096_S1x4096_1 _ (ix2 u j) (ix1 j) (fun a => match a with
    | ⟨0, _⟩ => by show j.val = if (4096 : Nat) = 1 then 0 else j.val; rw [if_neg (by decide)]), sum_along_col]
  rfl

/-- The bias laid out as a row holds, at column `j`, bias entry `j`. -/
theorem bias_entry (c : Dev nD) (u : Fin 1) (j : Fin 4096) :
    (V m c main_v6 : S1x4096.Idx → EReal) (ix2 u j) = (m ((c : Thread nD τ).loc main_arg2) : S4096.Idx → EReal) (ix1 j) := by
  have e : (V m c main_v6 : S1x4096.Idx → EReal)
      = shapeCast S1x4096 (m ((c : Thread nD τ).loc main_arg2) : S4096.Idx → EReal) shapeCasts_S4096_S1x4096 := by
    dsimp only [Gen.V, Gen.hostOps0]; after_results; rfl
  rw [e, shapeCast_a_1a_apply]

end Cert.KernelIdeal.Entry

end
-- ==== Proof.KernelArray.lean ====
/-
  From the blocks to the whole result array.

  The grid has 4 × 8 points; point `(g, h)` stores the 2048 × 512 block of the result whose rows are
  `2048 g … 2048 g + 2047` and whose columns are `512 h … 512 h + 511`.  It loads rows `2048 g …` of
  `x` and of the column of squared row lengths (all 512, resp. the one, of their columns), and
  columns `512 h …` of `w`, of the row of squared column lengths and of the bias row (all 512, resp.
  the one, of their rows).  So entry `(p, q)` of the stored block is computed from row
  `r = 2048 g + p` of `x` and column `c = 512 h + q` of `w`, and by the reading of the body's
  arithmetic and of the arrays the region finds it is entry `(r, c)` of the specification's
  function.  Every entry `(r, c)` of the result lies in the block of the point
  `(r / 2048, c / 512)`, so the blocks cover the array and the array ends holding that function.
-/
import proofs.«132300_j70506183131345_2_alg».proof.Proof.Gen.KernelIdeal.Value
import proofs.«132300_j70506183131345_2_alg».proof.Proof.KernelBody
import proofs.«132300_j70506183131345_2_alg».proof.Proof.KernelEntry

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result array: the specification's function of the three argument arrays. -/
abbrev result (c : Dev nD) : Buf (Elt Ideal) ((c : Thread nD τ).loc main_v9) :=
  Rbf.rbf (m ((c : Thread nD τ).loc main_arg0)) (m ((c : Thread nD τ).loc main_arg1)) (m ((c : Thread nD τ).loc main_arg2))

/-- The index maps, decided over the 32 grid points: the windows over rows move with the output's
    row block and stay at column block 0, the windows over columns move with the output's column
    block and stay at row block 0, and the output's block indices range over 4 × 8. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 3 ∧ win0_5.index t (1 : Fin 2) ≤ 7 :=
  (by decide +kernel : ∀ t : Fin grid0.N, _)

/-- Every block of the 4 × 8 tiling is some point's. -/
theorem block_onto : ∀ (g : Fin 4) (h : Fin 8), ∃ t : Fin cfg0.N, win0_5.index t = ![g.val, h.val] :=
  (by decide +kernel : ∀ (g : Fin 4) (h : Fin 8), ∃ t : Fin grid0.N, win0_5.index t = ![g.val, h.val])

/-! ## The five loaded blocks, read at an entry -/

/-- The block of `x` at point `t`, at `(p, k)`: `x` at row `r` of the output's row block, column `k`. -/
theorem x_block (c : Dev nD) (t : Fin cfg0.N) (p : Fin 2048) (k : Fin 512) (r : Fin 8192)
    (hr : r.val = win0_5.index t (0 : Fin 2) * 2048 + 1 * p.val) :
    (iblk m c 0 t : Vec Ideal S2048x512 .bf16) (ix2 p k)
      = (m ((c : Thread nD τ).loc main_arg0) : S8192x512.Idx → EReal) (ix2 r k) := by
  obtain ⟨e00, e01, -⟩ := block_indices t
  show (V m c main_v7 : S8192x512.Idx → EReal) (((cfg0.win 0).blk t).view.emb (ix2 p k)) = _
  refine (congrArg (V m c main_v7 : S8192x512.Idx → EReal) ?_).trans (Entry.x_entry m c (ix2 r k))
  funext a; apply Fin.ext
  match a with
  | ⟨0, _⟩ => show win0_0.index t (0 : Fin 2) * 2048 + 1 * p.val = r.val; omega
  | ⟨1, _⟩ => show win0_0.index t (1 : Fin 2) * 512 + 1 * k.val = k.val; omega

/-- The block of `w` at point `t`, at `(k, q)`: `w` at row `k`, column `j` of the output's column block. -/
theorem w_block (c : Dev nD) (t : Fin cfg0.N) (k : Fin 512) (q : Fin 512) (j : Fin 4096)
    (hj : j.val = win0_5.index t (1 : Fin 2) * 512 + 1 * q.val) :
    (iblk m c 1 t : Vec Ideal S512x512 .bf16) (ix2 k q)
      = (m ((c : Thread nD τ).loc main_arg1) : S512x4096.Idx → EReal) (ix2 k j) := by
  obtain ⟨-, -, e10, e11, -⟩ := block_indices t
  show (V m c main_v8 : S512x4096.Idx → EReal) (((cfg0.win 1).blk t).view.emb (ix2 k q)) = _
  refine (congrArg (V m c main_v8 : S512x4096.Idx → EReal) ?_).trans (Entry.w_entry m c (ix2 k j))
  funext a; apply Fin.ext
  match a with
  | ⟨0, _⟩ => show win0_1.index t (0 : Fin 2) * 512 + 1 * k.val = k.val; omega
  | ⟨1, _⟩ => show win0_1.index t (1 : Fin 2) * 512 + 1 * q.val = j.val; omega

/-- The block of squared row lengths at point `t`, at row `p`: the squared length of row `r` of `x`. -/
theorem rowSq_block (c : Dev nD) (t : Fin cfg0.N) (p : Fin 2048) (r : Fin 8192)
    (hr : r.val = win0_5.index t (0 : Fin 2) * 2048 + 1 * p.val) :
    (iblk m c 2 t : Vec Ideal S2048x1 .f32) (ix2 p (0 : Fin 1)) = Rbf.rowSq (m ((c : Thread nD τ).loc main_arg0)) r := by
  obtain ⟨-, -, -, -, e20, e21, -⟩ := block_indices t
  show (V m c main_v2 : S8192x1.Idx → EReal) (((cfg0.win 2).blk t).view.emb (ix2 p (0 : Fin 1))) = _
  refine (congrArg (V m c main_v2 : S8192x1.Idx → EReal) ?_).trans (Entry.rowSq_entry m c r (0 : Fin 1))
  funext a; apply Fin.ext
  match a with
  | ⟨0, _⟩ => show win0_2.index t (0 : Fin 2) * 2048 + 1 * p.val = r.val; omega
  | ⟨1, _⟩ => show win0_2.index t (1 : Fin 2) * 1 + 1 * 0 = 0; omega

/-- The block of squared column lengths at point `t`, at column `q`: the squared length of column `j` of `w`. -/
theorem colSq_block (c : Dev nD) (t : Fin cfg0.N) (q : Fin 512) (j : Fin 4096)
    (hj : j.val = win0_5.index t (1 : Fin 2) * 512 + 1 * q.val) :
    (iblk m c 3 t : Vec Ideal S1x512 .f32) (ix2 (0 : Fin 1) q) = Rbf.colSq (m ((c : Thread nD τ).loc main_arg1)) j := by
  obtain ⟨-, -, -, -, -, -, e30, e31, -⟩ := block_indices t
  show (V m c main_v5 : S1x4096.Idx → EReal) (((cfg0.win 3).blk t).view.emb (ix2 (0 : Fin 1) q)) = _
  refine (congrArg (V m c main_v5 : S1x4096.Idx → EReal) ?_).trans (Entry.colSq_entry m c (0 : Fin 1) j)
  funext a; apply Fin.ext
  match a with
  | ⟨0, _⟩ => show win0_3.index t (0 : Fin 2) * 1 + 1 * 0 = 0; omega
  | ⟨1, _⟩ => show win0_3.index t (1 : Fin 2) * 512 + 1 * q.val = j.val; omega

/-- The block of the bias row at point `t`, at column `q`: bias entry `j`. -/
theorem bias_block (c : Dev nD) (t : Fin cfg0.N) (q : Fin 512) (j : Fin 4096)
    (hj : j.val = win0_5.index t (1 : Fin 2) * 512 + 1 * q.val) :
    (iblk m c 4 t : Vec Ideal S1x512 .f32) (ix2 (0 : Fin 1) q)
      = (m ((c : Thread nD τ).loc main_arg2) : S4096.Idx → EReal) (ix1 j) := by
  obtain ⟨-, -, -, -, -, -, -, -, e40, e41, -⟩ := block_indices t
  show (V m c main_v6 : S1x4096.Idx → EReal) (((cfg0.win 4).blk t).view.emb (ix2 (0 : Fin 1) q)) = _
  refine (congrArg (V m c main_v6 : S1x4096.Idx → EReal) ?_).trans (Entry.bias_entry m c (0 : Fin 1) j)
  funext a; apply Fin.ext
  match a with
  | ⟨0, _⟩ => show win0_4.index t (0 : Fin 2) * 1 + 1 * 0 = 0; omega
  | ⟨1, _⟩ => show win0_4.index t (1 : Fin 2) * 512 + 1 * q.val = j.val; omega

/-! ## What a point stores -/

/-- Entry `(p, q)` of the block point `t` stores is entry `i` of the result, for the array index `i`
    at which the output's block places `(p, q)`. -/
theorem stored_block_entry (c : Dev nD) (t : Fin cfg0.N) (p : Fin 2048) (q : Fin 512) (i : S8192x4096.Idx)
    (hi0 : (i 0).val = win0_5.index t (0 : Fin 2) * 2048 + 1 * p.val)
    (hi1 : (i 1).val = win0_5.index t (1 : Fin 2) * 512 + 1 * q.val) :
    k0_pay1 (F := Ideal) (iblk m c 0 t) (iblk m c 1 t) (iblk m c 2 t) (iblk m c 3 t) (iblk m c 4 t) (ix2 p q)
      = result m c i := by
  refine (Body.stored_entry (iblk m c 0 t) (iblk m c 1 t) (iblk m c 2 t) (iblk m c 3 t) (iblk m c 4 t) p q).trans ?_
  have ha := rowSq_block m c t p (i 0) hi0
  have hb := colSq_block m c t q (i 1) hi1
  have hβ := bias_block m c t q (i 1) hi1
  rw [ha, hb, hβ]
  refine congrArg (fun s : EReal => Rbf.cell (Rbf.sqDist (Rbf.rowSq (m ((c : Thread nD τ).loc main_arg0)) (i 0))
    (Rbf.colSq (m ((c : Thread nD τ).loc main_arg1)) (i 1)) s) ((m ((c : Thread nD τ).loc main_arg2) : S4096.Idx → EReal) (ix1 (i 1)))) ?_
  show _ = Rbf.inner (m ((c : Thread nD τ).loc main_arg0)) (m ((c : Thread nD τ).loc main_arg1)) (i 0) (i 1)
  unfold Rbf.inner
  exact Finset.sum_congr rfl fun k _ => by rw [x_block m c t p k (i 0) hi0, w_block m c t k q (i 1) hi1]

/-- What point `t` writes back is block `t` of the result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S2048x512) zero_offsets, View.ld_unit_zero (S := S512x512) zero_offsets,
    View.ld_unit_zero (S := S2048x1) zero_offsets, View.ld_unit_zero (S := S1x512) zero_offsets]
  funext y
  obtain ⟨p, q, rfl⟩ : ∃ (p : Fin 2048) (q : Fin 512), y = ix2 p q := ⟨y 0, y 1, eq_ix2 (n0 := 2048) (n1 := 512) y⟩
  exact stored_block_entry m c t p q _ rfl rfl

/-! ## The blocks cover the array -/

/-- An index of the array is in point `t`'s block iff each coordinate is in the block's range on its axis. -/
theorem mem_block (t : Fin cfg0.N) (i : S8192x4096.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v9).slice (win0_5.rect t)).set ↔ _
  rw [View.set_slice_whole, Rect.mem_set_unit]
  exact Iff.rfl

/-- Entry `(r, c)` lies in the block of the point whose block indices are `(r / 2048, c / 512)`. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := block_onto ⟨(i 0).val / 2048, by omega⟩ ⟨(i 1).val / 512, by omega⟩
  have q0 : win0_5.index t (0 : Fin 2) = (i 0).val / 2048 := congrFun ht 0
  have q1 : win0_5.index t (1 : Fin 2) = (i 1).val / 512 := congrFun ht 1
  refine ⟨t, flush0_5 t, ?_⟩
  rw [mem_block]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 512 ≤ (i 1).val ∧ (i 1).val < win0_5.index t (1 : Fin 2) * 512 + 512
    omega

/-- The result array after the run is the specification's function of the arguments. -/
theorem final (c : Dev nD) : (dats m 0 c).arrAt 5 cfg0.N = result m c :=
  (dats m 0 c).arrAt_eq_of_cover 5 (result m c) (fun t _ => flushed_eq m c t) covered

/-- The kernel's run: every weakly fair execution ends with the result array at the specification's
    function of the arguments, and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A radial-basis-function layer, blocked on the matrix unit, against its plain formulation.

  Both programs map `x : [8192, 512]`, `w : [512, 4096]` and `b : [4096]` to the array whose entry
  `(r, c)` is

      exp (-1 · max ((|x_r|² + |w_c|²) - 2 · <x_r, w_c>, 0)) + b_c ,

  the Gaussian of the squared distance between row `r` of `x` and column `c` of `w`, the distance
  expanded into the two squared lengths and the inner product.  The reference computes it with
  whole-array operations.  The kernel's program computes the two families of squared lengths by the
  same whole-array sums, changes the float format of `x` and `w` (the identity over the extended
  reals), and then tiles the result into 4 × 8 blocks of 2048 × 512 entries: a grid point multiplies
  its 2048 rows of `x` by its 512 columns of `w` on the matrix unit, over the whole contraction
  axis at once, and finishes the block entry by entry.

  Over the extended reals the matrix unit's product into a zero accumulator and the host's matrix
  product are both the sum over the contraction index, the two exponentials are one function, and
  the remaining operations are the same in the same order with the same constants.  Nothing is
  regrouped or distributed, so the two results are equal term for term and no property of the inputs
  is used: `RbfSpec` states the function, `RefValue` reads the reference as it, `KernelBody` reads a
  grid point's arithmetic at an entry, `KernelEntry` reads the arrays the region finds, and
  `KernelArray` assembles the blocks into the whole array.
-/
import proofs.«132300_j70506183131345_2_alg».proof.Defs
import proofs.«132300_j70506183131345_2_alg».proof.Proof.Gen.Kernel
import proofs.«132300_j70506183131345_2_alg».proof.Proof.Gen.Kernel.Skeleton
import proofs.«132300_j70506183131345_2_alg».proof.Proof.Gen.Kernel.Launch
import proofs.«132300_j70506183131345_2_alg».proof.Proof.Gen.Kernel.Points
import proofs.«132300_j70506183131345_2_alg».proof.Proof.Gen.Kernel.Frame
import proofs.«132300_j70506183131345_2_alg».proof.Proof.Gen.KernelIdeal
import proofs.«132300_j70506183131345_2_alg».proof.Proof.Gen.KernelIdeal.Skeleton
import proofs.«132300_j70506183131345_2_alg».proof.Proof.Gen.KernelIdeal.Launch
import proofs.«132300_j70506183131345_2_alg».proof.Proof.Gen.KernelIdeal.Points
import proofs.«132300_j70506183131345_2_alg».proof.Proof.Gen.KernelIdeal.Frame
import proofs.«132300_j70506183131345_2_alg».proof.Proof.Gen.ReferenceIdeal
import proofs.«132300_j70506183131345_2_alg».proof.Proof.Gen.Pre_finite_inputs
import proofs.«132300_j70506183131345_2_alg».proof.Proof.Gen.KernelIdeal.Value
import proofs.«132300_j70506183131345_2_alg».proof.Proof.Gen.ReferenceIdeal.Run
import proofs.«132300_j70506183131345_2_alg».proof.Proof.Gen.ReferenceIdeal.Read
import proofs.«132300_j70506183131345_2_alg».proof.Proof.RefValue
import proofs.«132300_j70506183131345_2_alg».proof.Proof.KernelArray
import Idealize.ShloMosaic.Adequacy
import Idealize.ShloMosaic.Init

noncomputable section

namespace Cert.Proof

open Idealize.ShloMosaic Idealize.SL.Sem

/-- The kernel's program, on machine words, runs to the end and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs to the end and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel's program over the extended reals rewrote none of its operations. -/
theorem preserves : Cert.preserves_Kernel_KernelIdeal := trivial

/-- From memories that agree on the three arguments, both programs end with the result array at the
    same function of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
